-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S256x512 : Shape := ⟨2, ![256, 512]⟩
abbrev S256 : Shape := ⟨1, ![256]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S2048x512 .f32) (main_arg1 : FVec F S256x512 .f32) (main_arg2 : FVec F S256 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S2048x512 : Shape := ⟨2, ![2048, 512]⟩
abbrev S256x512 : Shape := ⟨2, ![256, 512]⟩
abbrev S256 : Shape := ⟨1, ![256]⟩
abbrev S512x256 : Shape := ⟨2, ![512, 256]⟩
abbrev S1x256 : Shape := ⟨2, ![1, 256]⟩
abbrev S2048x256 : Shape := ⟨2, ![2048, 256]⟩
abbrev S64x512 : Shape := ⟨2, ![64, 512]⟩
abbrev S64x256 : Shape := ⟨2, ![64, 256]⟩
abbrev S64x128 : Shape := ⟨2, ![64, 128]⟩
abbrev S128x256 : Shape := ⟨2, ![128, 256]⟩
abbrev S64x128x1 : Shape := ⟨3, ![64, 128, 1]⟩
abbrev S1x128x256 : Shape := ⟨3, ![1, 128, 256]⟩
abbrev S64x128x256 : Shape := ⟨3, ![64, 128, 256]⟩

abbrev nBuf : Space → Nat
  | .hbm => 6
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S256x512, .f32⟩
  | .hbm, ⟨2, _⟩ => ⟨S256, .f32⟩
  | .hbm, ⟨3, _⟩ => ⟨S512x256, .f32⟩
  | .hbm, ⟨4, _⟩ => ⟨S1x256, .f32⟩
  | .hbm, ⟨5, _⟩ => ⟨S2048x256, .f32⟩
  | .local _ .vmem, ⟨0, _⟩ => ⟨S64x512, .f32⟩
  | .local _ .vmem, ⟨1, _⟩ => ⟨S64x512, .f32⟩
  | .local _ .vmem, ⟨2, _⟩ => ⟨S512x256, .f32⟩
  | .local _ .vmem, ⟨3, _⟩ => ⟨S1x256, .f32⟩
  | .local _ .vmem, ⟨4, _⟩ => ⟨S64x256, .f32⟩
  | .local _ .vmem, ⟨5, _⟩ => ⟨S64x256, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S256x512_S512x256_1_0 : S256x512.Transposes [1, 0] S512x256
  shapeCasts_S256_S1x256 : S256.ShapeCasts S1x256
  inb_S64x512_S64x128_0_0 : ∀ a, (![0, 0] : Fin 2 → Nat) a + S64x128.size a ≤ S64x512.size a
  h_S64x128 : 0 < S64x128.numel
  inb_S512x256_S128x256_0_0 : ∀ a, (![0, 0] : Fin 2 → Nat) a + S128x256.size a ≤ S512x256.size a
  h_S128x256 : 0 < S128x256.numel
  shapeCasts_S128x256_S128x256 : S128x256.ShapeCasts S128x256
  shapeCasts_S64x128_S64x128x1 : S64x128.ShapeCasts S64x128x1
  shapeCasts_S128x256_S1x128x256 : S128x256.ShapeCasts S1x128x256
  broadcasts_S64x128x1_S64x128x256 : S64x128x1.Broadcasts S64x128x256
  broadcasts_S1x128x256_S64x128x256 : S1x128x256.Broadcasts S64x128x256
  reduces_S64x128x256_S64x256 : S64x128x256.Reduces [1] S64x256
  inb_S64x512_S64x128_0_128 : ∀ a, (![0, 128] : Fin 2 → Nat) a + S64x128.size a ≤ S64x512.size a
  inb_S512x256_S128x256_128_0 : ∀ a, (![128, 0] : Fin 2 → Nat) a + S128x256.size a ≤ S512x256.size a
  inb_S64x512_S64x128_0_256 : ∀ a, (![0, 256] : Fin 2 → Nat) a + S64x128.size a ≤ S64x512.size a
  inb_S512x256_S128x256_256_0 : ∀ a, (![256, 0] : Fin 2 → Nat) a + S128x256.size a ≤ S512x256.size a
  inb_S64x512_S64x128_0_384 : ∀ a, (![0, 384] : Fin 2 → Nat) a + S64x128.size a ≤ S64x512.size a
  inb_S512x256_S128x256_384_0 : ∀ a, (![384, 0] : Fin 2 → Nat) a + S128x256.size a ≤ S512x256.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S64x256 : S1x256.Broadcasts S64x256
  inb_S64x256_S64x256_0_0 : ∀ a, (![0, 0] : Fin 2 → Nat) a + S64x256.size a ≤ S64x256.size a
  h_S64x256 : 0 < S64x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x512.size a ≤ S2048x512.size a
  hwx0_0 : ∀ i : grid0.Coords, EltTy.bits .f32 = 32 ∨ (Rect.block (s := S2048x512) S64x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S2048x256.size a
  hwx0_3 : ∀ i : grid0.Coords, EltTy.bits .f32 = 32 ∨ (Rect.block (s := S2048x256) S64x256.size (cc0_transform_3 i) (hinb0_3 i)).WholeWords (EltTy.packing .f32)

variable [Facts₀]

abbrev win0_0 : Pipeline.Window sig grid0 :=
  Pipeline.Window.ofSpec (Memref.whole main_arg0) S64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x512 : Shape := ⟨2, ![2048, 512]⟩
abbrev S256x512 : Shape := ⟨2, ![256, 512]⟩
abbrev S256 : Shape := ⟨1, ![256]⟩
abbrev S2048x512x1 : Shape := ⟨3, ![2048, 512, 1]⟩
abbrev S512x256 : Shape := ⟨2, ![512, 256]⟩
abbrev S1x512x256 : Shape := ⟨3, ![1, 512, 256]⟩
abbrev S2048x512x256 : Shape := ⟨3, ![2048, 512, 256]⟩
abbrev S_ : Shape := ⟨0, ![]⟩
abbrev S2048x256 : Shape := ⟨2, ![2048, 256]⟩
abbrev S1x256 : Shape := ⟨2, ![1, 256]⟩

abbrev nBuf : Space → Nat
  | .hbm => 17
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S256x512, .f32⟩
  | .hbm, ⟨2, _⟩ => ⟨S256, .f32⟩
  | .hbm, ⟨3, _⟩ => ⟨S2048x512x1, .f32⟩
  | .hbm, ⟨4, _⟩ => ⟨S512x256, .f32⟩
  | .hbm, ⟨5, _⟩ => ⟨S1x512x256, .f32⟩
  | .hbm, ⟨6, _⟩ => ⟨S2048x512x256, .f32⟩
  | .hbm, ⟨7, _⟩ => ⟨S2048x512x256, .f32⟩
  | .hbm, ⟨8, _⟩ => ⟨S2048x512x256, .f32⟩
  | .hbm, ⟨9, _⟩ => ⟨S_, .f32⟩
  | .hbm, ⟨10, _⟩ => ⟨S2048x256, .f32⟩
  | .hbm, ⟨11, _⟩ => ⟨S_, .f32⟩
  | .hbm, ⟨12, _⟩ => ⟨S2048x256, .f32⟩
  | .hbm, ⟨13, _⟩ => ⟨S2048x256, .f32⟩
  | .hbm, ⟨14, _⟩ => ⟨S1x256, .f32⟩
  | .hbm, ⟨15, _⟩ => ⟨S2048x256, .f32⟩
  | .hbm, ⟨16, _⟩ => ⟨S2048x256, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S2048x512_S2048x512x1_0_1 : S2048x512.BroadcastsInDim S2048x512x1 (![0, 1] : Fin 2 → Fin S2048x512x1.rank)
  transposes_S256x512_S512x256_1_0 : S256x512.Transposes [1, 0] S512x256
  bcast_S512x256_S1x512x256_1_2 : S512x256.BroadcastsInDim S1x512x256 (![1, 2] : Fin 2 → Fin S1x512x256.rank)
  bcast_S2048x512x1_S2048x512x256_0_1_2 : S2048x512x1.BroadcastsInDim S2048x512x256 (![0, 1, 2] : Fin 3 → Fin S2048x512x256.rank)
  bcast_S1x512x256_S2048x512x256_0_1_2 : S1x512x256.BroadcastsInDim S2048x512x256 (![0, 1, 2] : Fin 3 → Fin S2048x512x256.rank)
  reducesTo_S2048x512x256_S2048x256_d1 : S2048x512x256.ReducesTo [1] S2048x256
  h_S_ : 0 < S_.numel
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)

variable [Facts₀]

class Facts : Prop extends Facts₀ where

variable [Facts]
-- ==== Proof.LibMaxMinFold.lean ====
/-
  General facts about maxima and minima taken as folds, at the extended reals.

  1. Grouping. In a linear order the fold of `max` from a start value `b` over a finite family is the least upper bound
     of `b` and the family's terms; so the maximum of four such folds over four sub-families, each from the same `b`,
     is the fold over the whole family as soon as every index lies in one of the four (`b` counted four times is
     harmless: `max` is idempotent). The same for `min` and greatest lower bounds. Nothing is asked of the terms: the
     statements hold at +∞ and −∞.
  2. Reductions over ONE axis read at a result index, with the extended reals as values: a vector `multi_reduction` by
     `minimumf` and the host's one-operand `reduce` with a `maximumf` or `minimumf` body are the fold of `min` / `max`,
     from the initial value, over that axis's coordinates `k`, of the source at the result index with `k` inserted on
     the dropped axis. (For a vector `multi_reduction` by `maximumf` this is the library's
     `Ideal.multiReduction_maximumf_single`.)
-/
import Idealize.ShloMosaic.PureOps.Ideal.Laws
import Mathlib.Data.Finset.Fold

noncomputable section

namespace Cert.MaxMinFold

open Idealize.ShloMosaic

/-! ## Folding over four sub-families that cover the index set -/

section Runs

variable {α : Type} [LinearOrder α] {ι κ : Type} [Fintype ι] [Fintype κ]

/-- The maximum of four partial maxima, each folded from `b` over one sub-family `f ∘ g c`, is the maximum folded from
    `b` over the whole family `f`, when every index of `f` is `g c k` for some `c` and `k`. Both sides are the least upper
    bound of `b` and the terms of `f`. -/
theorem fold_max_runs (b : α) (f : ι → α) (g0 g1 g2 g3 : κ → ι)
    (hcov : ∀ i : ι, ∃ k : κ, g0 k = i ∨ g1 k = i ∨ g2 k = i ∨ g3 k = i) :
    max (max (max (Finset.univ.fold max b (f ∘ g0)) (Finset.univ.fold max b (f ∘ g1)))
        (Finset.univ.fold max b (f ∘ g2))) (Finset.univ.fold max b (f ∘ g3))
      = Finset.univ.fold max b f := by
  have hb : ∀ g : κ → ι, b ≤ Finset.univ.fold max b (f ∘ g) := fun g =>
    (Finset.le_fold_max _).2 (Or.inl le_rfl)
  have hk : ∀ (g : κ → ι) (k : κ), f (g k) ≤ Finset.univ.fold max b (f ∘ g) := fun g k =>
    (Finset.le_fold_max _).2 (Or.inr ⟨k, Finset.mem_univ k, le_rfl⟩)
  have hrun : ∀ g : κ → ι, Finset.univ.fold max b (f ∘ g) ≤ Finset.univ.fold max b f := fun g =>
    (Finset.fold_max_le _).2 ⟨(Finset.le_fold_max _).2 (Or.inl le_rfl),
      fun k _ => (Finset.le_fold_max _).2 (Or.inr ⟨g k, Finset.mem_univ _, le_rfl⟩)⟩
  apply le_antisymm
  · exact max_le (max_le (max_le (hrun g0) (hrun g1)) (hrun g2)) (hrun g3)
  · refine (Finset.fold_max_le _).2 ⟨?_, fun i _ => ?_⟩
    · exact le_max_of_le_right (hb g3)
    · obtain ⟨k, h | h | h | h⟩ := hcov i
      · rw [← h]; exact le_max_of_le_left (le_max_of_le_left (le_max_of_le_left (hk g0 k)))
      · rw [← h]; exact le_max_of_le_left (le_max_of_le_left (le_max_of_le_right (hk g1 k)))
      · rw [← h]; exact le_max_of_le_left (le_max_of_le_right (hk g2 k))
      · rw [← h]; exact le_max_of_le_right (hk g3 k)

/-- The same for the minimum: both sides are the greatest lower bound of `b` and the terms of `f`. -/
theorem fold_min_runs (b : α) (f : ι → α) (g0 g1 g2 g3 : κ → ι)
    (hcov : ∀ i : ι, ∃ k : κ, g0 k = i ∨ g1 k = i ∨ g2 k = i ∨ g3 k = i) :
    min (min (min (Finset.univ.fold min b (f ∘ g0)) (Finset.univ.fold min b (f ∘ g1)))
        (Finset.univ.fold min b (f ∘ g2))) (Finset.univ.fold min b (f ∘ g3))
      = Finset.univ.fold min b f := by
  have hb : ∀ g : κ → ι, Finset.univ.fold min b (f ∘ g) ≤ b := fun g =>
    (Finset.fold_min_le _).2 (Or.inl le_rfl)
  have hk : ∀ (g : κ → ι) (k : κ), Finset.univ.fold min b (f ∘ g) ≤ f (g k) := fun g k =>
    (Finset.fold_min_le _).2 (Or.inr ⟨k, Finset.mem_univ k, le_rfl⟩)
  have hrun : ∀ g : κ → ι, Finset.univ.fold min b f ≤ Finset.univ.fold min b (f ∘ g) := fun g =>
    (Finset.le_fold_min _).2 ⟨(Finset.fold_min_le _).2 (Or.inl le_rfl),
      fun k _ => (Finset.fold_min_le _).2 (Or.inr ⟨g k, Finset.mem_univ _, le_rfl⟩)⟩
  apply le_antisymm
  · refine (Finset.le_fold_min _).2 ⟨?_, fun i _ => ?_⟩
    · exact min_le_of_right_le (hb g3)
    · obtain ⟨k, h | h | h | h⟩ := hcov i
      · rw [← h]; exact min_le_of_left_le (min_le_of_left_le (min_le_of_left_le (hk g0 k)))
      · rw [← h]; exact min_le_of_left_le (min_le_of_left_le (min_le_of_right_le (hk g1 k)))
      · rw [← h]; exact min_le_of_left_le (min_le_of_right_le (hk g2 k))
      · rw [← h]; exact min_le_of_right_le (hk g3 k)
  · exact le_min (le_min (le_min (hrun g0) (hrun g1)) (hrun g2)) (hrun g3)

end Runs

/-! ## One-axis reductions at the extended reals, read at a result index -/

section OneAxis

variable {s t : Shape} {a : Fin s.rank}

/-- A float vector `multi_reduction` by `minimumf` over one axis, at the extended reals: the fold of `min`, from the
    accumulator word's value, over that axis's coordinates. -/
theorem multiReduction_minimumf_single {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]
  exact h.fold_filter_drop_single _ _ src j

/-- The host's one-operand `reduce` with a `maximumf` body over one axis, at the extended reals: the fold of `max`, from
    the initial value's element, over that axis's coordinates. -/
theorem hostReduce_maximumf_single {u : Shape} {φ : FTy} (x : s.Idx → EReal) (init : u.Idx → EReal)
    (h' : s.ReducesTo [a] t) (h : s.Reduces [a] t) (hu : 0 < u.numel) (j : t.Idx) :
    Host.reduce (FloatOps.maximumf (F := Ideal) (φ := φ)) x init h' hu j
      = (Finset.univ : Finset (Fin (s.size a))).fold max (init (Shape.Idx.first hu)) (x ∘ h.lift j) :=
  Host.reduce_eq_fold_single (FloatOps.maximumf (F := Ideal) (φ := φ)) x init h' h hu j

/-- The same with a `minimumf` body: the fold of `min`. -/
theorem hostReduce_minimumf_single {u : Shape} {φ : FTy} (x : s.Idx → EReal) (init : u.Idx → EReal)
    (h' : s.ReducesTo [a] t) (h : s.Reduces [a] t) (hu : 0 < u.numel) (j : t.Idx) :
    Host.reduce (FloatOps.minimumf (F := Ideal) (φ := φ)) x init h' hu j
      = (Finset.univ : Finset (Fin (s.size a))).fold min (init (Shape.Idx.first hu)) (x ∘ h.lift j) :=
  Host.reduce_eq_fold_single (FloatOps.minimumf (F := Ideal) (φ := φ)) x init h' h hu j

end OneAxis

end Cert.MaxMinFold

end
-- ==== Proof.MaxMinSpec.lean ====
/-
  The function both programs compute, and the one law that joins their two arrangements of it.

  For a row `n` of `x` (2048 × 512) and a row `j` of `weight` (256 × 512) put `p k = x[n,k] · weight[j,k]` for the 512
  coordinates `k` of the contracted axis. The result at `(n, j)` is

      (max over k of p k)  +  (min over k of p k)  +  bias[j],

  the maximum started from −∞ and the minimum from +∞. The two start values stay the f32 words `0xFF800000` and
  `0x7F800000`: both programs carry the same words, so they are never evaluated.

  One program folds `max` over all 512 coordinates at once. The other cuts the axis into four runs of 128 coordinates,
  folds each run from the same start value, and joins the four partial results by `max` (likewise `min`). In any
  linear order a fold of `max` from a start value `b` is the least upper bound of `b` and the terms, so the grouping
  of the terms does not matter as long as every coordinate lies in some run (`Cert.MaxMinFold.fold_max_runs`, and
  `fold_min_runs` for the minimum). No finiteness is used: the law holds at ±∞ as well.
-/
import Idealize.ShloMosaic.PureOps.Ideal
import Idealize.ShloMosaic.Lib.ValueIdx
import proofs.«127666_j64785286692872_2_alg».proof.Proof.LibMaxMinFold

noncomputable section

namespace Cert.MaxMin

open Idealize.ShloMosaic Idealize.ShloMosaic.ValueIdx Cert.MaxMinFold

/-! ## The four runs of 128 among the 512 coordinates -/

/-- Coordinate `k` of the run that starts at offset `o`. -/
def run (o : Nat) (ho : o + 128 ≤ 512) (k : Fin 128) : Fin 512 := ⟨o + k.val, by have := k.isLt; omega⟩

theorem run_val (o : Nat) (ho : o + 128 ≤ 512) (k : Fin 128) : (run o ho k).val = o + k.val := rfl

/-- Every one of the 512 coordinates is coordinate `i mod 128` of the run starting at `128 · (i div 128)`. -/
theorem runs_cover (i : Fin 512) : ∃ k : Fin 128,
    run 0 (by decide) k = i ∨ run 128 (by decide) k = i ∨ run 256 (by decide) k = i ∨ run 384 (by decide) k = i := by
  have hi := i.isLt
  refine ⟨⟨i.val % 128, Nat.mod_lt _ (by decide)⟩, ?_⟩
  rcases (by omega : i.val / 128 = 0 ∨ i.val / 128 = 1 ∨ i.val / 128 = 2 ∨ i.val / 128 = 3) with h | h | h | h
  · exact Or.inl (Fin.ext (by show 0 + i.val % 128 = i.val; omega))
  · exact Or.inr (Or.inl (Fin.ext (by show 128 + i.val % 128 = i.val; omega)))
  · exact Or.inr (Or.inr (Or.inl (Fin.ext (by show 256 + i.val % 128 = i.val; omega))))
  · exact Or.inr (Or.inr (Or.inr (Fin.ext (by show 384 + i.val % 128 = i.val; omega))))

/-! ## The specification -/

/-- −∞, the maximum's start value, as the f32 word both programs print. -/
abbrev negInf : EReal := Ideal.ofBits .f32 0xFF800000#32
/-- +∞, the minimum's start value, as the f32 word both programs print. -/
abbrev posInf : EReal := Ideal.ofBits .f32 0x7F800000#32

/-- The products along the contracted axis for row `n` of `x` and row `j` of `weight`. -/
def rowProd (x : (⟨2, ![2048, 512]⟩ : Shape).Idx → EReal) (w : (⟨2, ![256, 512]⟩ : Shape).Idx → EReal)
    (n : Fin 2048) (j : Fin 256) (k : Fin 512) : EReal :=
  x (ix2 n k) * w (ix2 j k)

/-- The result at row `n`, column `j`: the largest product plus the smallest product plus the bias. -/
def specAt (x : (⟨2, ![2048, 512]⟩ : Shape).Idx → EReal) (w : (⟨2, ![256, 512]⟩ : Shape).Idx → EReal)
    (b : (⟨1, ![256]⟩ : Shape).Idx → EReal) (n : Fin 2048) (j : Fin 256) : EReal :=
  (Finset.univ.fold max negInf (rowProd x w n j) + Finset.univ.fold min posInf (rowProd x w n j)) + b (ix1 j)

/-- The whole result array. -/
def spec (x : (⟨2, ![2048, 512]⟩ : Shape).Idx → EReal) (w : (⟨2, ![256, 512]⟩ : Shape).Idx → EReal)
    (b : (⟨1, ![256]⟩ : Shape).Idx → EReal) : (⟨2, ![2048, 256]⟩ : Shape).Idx → EReal :=
  fun i => specAt x w b ⟨(i 0).val, idx2_lt0 i⟩ ⟨(i 1).val, idx2_lt1 i⟩

theorem spec_ix2 (x : (⟨2, ![2048, 512]⟩ : Shape).Idx → EReal) (w : (⟨2, ![256, 512]⟩ : Shape).Idx → EReal)
    (b : (⟨1, ![256]⟩ : Shape).Idx → EReal) (n : Fin 2048) (j : Fin 256) :
    spec x w b (ix2 n j) = specAt x w b n j := rfl

/-- The chunked arrangement of `specAt`: four runs of 128 products, the partial maxima joined by `max` and the partial
    minima by `min`. -/
theorem specAt_runs (x : (⟨2, ![2048, 512]⟩ : Shape).Idx → EReal) (w : (⟨2, ![256, 512]⟩ : Shape).Idx → EReal)
    (b : (⟨1, ![256]⟩ : Shape).Idx → EReal) (n : Fin 2048) (j : Fin 256) :
    (max (max (max (Finset.univ.fold max negInf (rowProd x w n j ∘ run 0 (by decide)))
                (Finset.univ.fold max negInf (rowProd x w n j ∘ run 128 (by decide))))
              (Finset.univ.fold max negInf (rowProd x w n j ∘ run 256 (by decide))))
          (Finset.univ.fold max negInf (rowProd x w n j ∘ run 384 (by decide)))
      + min (min (min (Finset.univ.fold min posInf (rowProd x w n j ∘ run 0 (by decide)))
                  (Finset.univ.fold min posInf (rowProd x w n j ∘ run 128 (by decide))))
                (Finset.univ.fold min posInf (rowProd x w n j ∘ run 256 (by decide))))
            (Finset.univ.fold min posInf (rowProd x w n j ∘ run 384 (by decide))))
      + b (ix1 j)
      = specAt x w b n j := by
  unfold specAt
  rw [fold_max_runs negInf (rowProd x w n j) _ _ _ _ runs_cover,
    fold_min_runs posInf (rowProd x w n j) _ _ _ _ runs_cover]

end Cert.MaxMin

end
-- ==== Proof.RefIsSpec.lean ====
/-
  The reference computes the specification.

  The reference spreads `x` (2048 × 512) and the transpose of `weight` (512 × 256) over a common 2048 × 512 × 256 index
  set, multiplies them there — the entry at `(n, k, j)` is `x[n,k] · weight[j,k]` —, takes along the middle axis the
  maximum from −∞ and the minimum from +∞, adds the two, and adds `bias` spread down the rows. A reduction over one axis,
  read at `(n, j)`, is the fold of its operation over the 512 middle coordinates `k` of the entries `(n, k, j)`: exactly
  the folds of `Cert.MaxMin.specAt`, over all 512 coordinates at once.
-/
import proofs.«127666_j64785286692872_2_alg».proof.Proof.Gen.ReferenceIdeal.Read
import proofs.«127666_j64785286692872_2_alg».proof.Proof.MaxMinSpec
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open Cert.MaxMin Cert.MaxMinFold

/-- The middle axis of the 2048 × 512 × 256 product array is the one reduced away. -/
theorem reduces_mid : S2048x512x256.Reduces [1] S2048x256 := by decide

/-- Inserting coordinate `k` on the middle axis over the result index `(n, j)` gives `(n, k, j)`. -/
theorem lift_mid (n : Fin 2048) (j : Fin 256) (k : Fin 512) :
    reduces_mid.lift (ix2 n j) k = ix3 n k j := by
  funext a
  match a with
  | ⟨0, _⟩ => rfl
  | ⟨1, _⟩ => rfl
  | ⟨2, _⟩ => rfl

/-- The product array at `(n, k, j)` is `x[n,k] · weight[j,k]`: the two spreads read their operands at `(n, k)` and,
    through the transpose, at `(j, k)`. -/
theorem prod_apply (x0 : S2048x512.Idx → EReal) (x1 : S256x512.Idx → EReal) (n : Fin 2048) (k : Fin 512) (j : Fin 256) :
    val_main_v5 (F := Ideal) x0 x1 (ix3 n k j) = x0 (ix2 n k) * x1 (ix2 j k) := by
  rw [val_main_v5_apply, val_main_v3_apply, val_main_v0_apply, val_main_v4_apply, val_main_v2_apply, val_main_v1_apply]
  have e0 : idx_main_v0 (idx_main_v3 (ix3 n k j)) = ix2 n k := funext fun a => by
    match a with
    | ⟨0, _⟩ => rfl
    | ⟨1, _⟩ => rfl
  have e1 : idx_main_v1 (idx_main_v2 (idx_main_v4 (ix3 n k j))) = ix2 j k := funext fun a => by
    match a with
    | ⟨0, _⟩ => rfl
    | ⟨1, _⟩ => rfl
  rw [e0, e1]
  rfl

/-- The products the reduction at `(n, j)` folds over are the row products of the specification. -/
theorem prod_lift (x0 : S2048x512.Idx → EReal) (x1 : S256x512.Idx → EReal) (n : Fin 2048) (j : Fin 256) :
    (val_main_v5 (F := Ideal) x0 x1 ∘ reduces_mid.lift (ix2 n j)) = rowProd x0 x1 n j := by
  exact funext fun (k : Fin 512) =>
    (congrArg (val_main_v5 (F := Ideal) x0 x1) (lift_mid n j k)).trans (prod_apply x0 x1 n k j)

/-- The reference's maximum at `(n, j)`: the fold of `max` from −∞ over the 512 row products. -/
theorem max_apply (x0 : S2048x512.Idx → EReal) (x1 : S256x512.Idx → EReal) (n : Fin 2048) (j : Fin 256) :
    val_main_v6 (F := Ideal) x0 x1 (ix2 n j) = Finset.univ.fold max negInf (rowProd x0 x1 n j) := by
  unfold val_main_v6
  refine (hostReduce_maximumf_single (φ := .f32) (val_main_v5 (F := Ideal) x0 x1) (val_main_cst (F := Ideal))
    reducesTo_S2048x512x256_S2048x256_d1 reduces_mid h_S_ (ix2 n j)).trans ?_
  exact congrArg (Finset.univ.fold max negInf) (prod_lift x0 x1 n j)

/-- The reference's minimum at `(n, j)`: the fold of `min` from +∞ over the same products. -/
theorem min_apply (x0 : S2048x512.Idx → EReal) (x1 : S256x512.Idx → EReal) (n : Fin 2048) (j : Fin 256) :
    val_main_v7 (F := Ideal) x0 x1 (ix2 n j) = Finset.univ.fold min posInf (rowProd x0 x1 n j) := by
  unfold val_main_v7
  refine (hostReduce_minimumf_single (φ := .f32) (val_main_v5 (F := Ideal) x0 x1) (val_main_cst_0 (F := Ideal))
    reducesTo_S2048x512x256_S2048x256_d1 reduces_mid h_S_ (ix2 n j)).trans ?_
  exact congrArg (Finset.univ.fold min posInf) (prod_lift x0 x1 n j)

/-- The bias spread down the rows, read at `(n, j)`, is `bias[j]`. -/
theorem bias_apply (x2 : S256.Idx → EReal) (n : Fin 2048) (j : Fin 256) :
    val_main_v10 (F := Ideal) x2 (ix2 n j) = x2 (ix1 j) := by
  rw [val_main_v10_apply, val_main_v9_apply]
  refine congrArg x2 (funext fun a => ?_)
  match a with
  | ⟨0, _⟩ => rfl

/-- THE REFERENCE IS THE SPECIFICATION: its last stage, as a function of the three argument arrays, is `spec`. -/
theorem ref_eq_spec (x0 : S2048x512.Idx → EReal) (x1 : S256x512.Idx → EReal) (x2 : S256.Idx → EReal) :
    val_main_v11 (F := Ideal) x0 x1 x2 = spec x0 x1 x2 := by
  funext i
  obtain ⟨n, j, rfl⟩ : ∃ (n : Fin 2048) (j : Fin 256), i = ix2 n j := ⟨i 0, i 1, eq_ix2 i⟩
  rw [spec_ix2, val_main_v11_apply, val_main_v8_apply, max_apply, min_apply, bias_apply]
  rfl

end Cert.ReferenceIdeal.RefValue

end
-- ==== Proof.LibLayoutRank3.lean ====
/-
  Three re-layings between rank 2 and rank 3, read at an index given by its coordinates.

  A product `p[i, j, l] = u[i, j] · v[j, l]` over a common three-axis index set is formed by giving `u` a trailing axis of
  extent one and `v` a leading axis of extent one, then repeating each along its new axis. Read at `(i, j, l)`:
    * `[a, b] → [a, b, 1]`, a cast: the entry at `(i, j, 0)` is the operand's at `(i, j)` (same row-major position);
    * `[a, b, 1] → [a, b, c]`, a broadcast: the entry at `(i, j, l)` is the operand's at `(i, j, 0)`;
    * `[1, b, c] → [a, b, c]`, a broadcast: the entry at `(i, j, l)` is the operand's at `(0, j, l)`.
  (The cast `[a, b] → [1, a, b]` is the library's `shapeCast_ab_1ab_apply`.) The extents are arbitrary naturals; on an axis
  whose extent happens to be one the only coordinate is 0, which is what a broadcast reads there anyway.
-/
import Idealize.ShloMosaic.Lib.Pipeline.Value
import Idealize.ShloMosaic.Lib.ValueIdx

namespace Cert.LayoutRank3

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, l)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, l)`, the operand at `(0, j, l)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (l : Fin c) :
    broadcastTo ⟨3, ![a, b, c]⟩ v h (ix3 i j l) = v (ix3 (0 : Fin 1) j l) := by
  refine broadcastTo_apply v h (ix3 i j l) (ix3 (0 : Fin 1) j l) fun ax => ?_
  match ax with
  | ⟨0, _⟩ => rfl
  | ⟨1, _⟩ =>
    show j.val = if b = 1 then 0 else j.val
    split
    · have := j.isLt; omega
    · rfl
  | ⟨2, _⟩ =>
    show l.val = if c = 1 then 0 else l.val
    split
    · have := l.isLt; omega
    · rfl

end Cert.LayoutRank3
-- ==== Proof.KernelPayload.lean ====
/-
  What the kernel body stores, read at one element of the output block.

  At a grid point the body holds a 64 × 512 block `X` of `x`, the whole 512 × 256 transpose `W` of `weight`
  (`W[k, j] = weight[j, k]`) and the 1 × 256 row `B` of `bias`. It cuts the contracted axis into four runs of 128: for the
  run starting at offset `o` it loads the 64 × 128 piece of `X` and the 128 × 256 piece of `W` at that offset, gives the
  first a trailing unit axis and the second a leading one, repeats both over the common 64 × 128 × 256 index set and
  multiplies — the entry at `(r, k, j)` is `X[r, o + k] · W[o + k, j]` — and takes along the middle axis the maximum from
  −∞ and the minimum from +∞. The four partial maxima are joined by `max`, the four partial minima by `min`, the two
  results are added, and `B`, repeated down the 64 rows, is added to that. So the stored value at `(r, j)` is

      max over the four runs (max over k < 128 of X[r, o + k] · W[o + k, j])
        + min over the four runs (min over k < 128 of X[r, o + k] · W[o + k, j])  +  B[0, j].

  The body's one store is through the rectangle that is the whole output block at zero offsets, so the block after the
  body IS the stored value.
-/
import proofs.«127666_j64785286692872_2_alg».proof.Proof.Gen.KernelIdeal.Frame
import proofs.«127666_j64785286692872_2_alg».proof.Proof.MaxMinSpec
import proofs.«127666_j64785286692872_2_alg».proof.Proof.LibLayoutRank3
import Idealize.ShloMosaic.Lib.Pipeline.Value
import Idealize.ShloMosaic.Lib.ValueLayout
import Idealize.ShloMosaic.PureOps.Ideal.Laws

noncomputable section

namespace Cert.KernelIdeal.KernelValue

open Cert.KernelIdeal Cert.KernelIdeal.Gen Idealize.ShloMosaic Idealize.ShloMosaic.ValueIdx
open Cert.MaxMin Cert.MaxMinFold Cert.LayoutRank3

/-! ## One run's products -/

/-- A 64 × 128 piece of `x` and a 128 × 256 piece of the transposed `weight`, spread over the common 64 × 128 × 256
    index set and multiplied there. -/
def chunkProd (a : S64x128.Idx → EReal) (b : S128x256.Idx → EReal) : S64x128x256.Idx → EReal :=
  mulf (F := Ideal) (φ := .f32)
    (broadcastTo S64x128x256 (shapeCast S64x128x1 a shapeCasts_S64x128_S64x128x1) broadcasts_S64x128x1_S64x128x256)
    (broadcastTo S64x128x256 (shapeCast S1x128x256 b shapeCasts_S128x256_S1x128x256) broadcasts_S1x128x256_S64x128x256)

/-- Its entry at `(r, k, j)` is `a[r, k] · b[k, j]`. -/
theorem chunkProd_apply (a : S64x128.Idx → EReal) (b : S128x256.Idx → EReal) (r : Fin 64) (k : Fin 128) (j : Fin 256) :
    chunkProd a b (ix3 r k j) = a (ix2 r k) * b (ix2 k j) := by
  show broadcastTo S64x128x256 (shapeCast S64x128x1 a shapeCasts_S64x128_S64x128x1) broadcasts_S64x128x1_S64x128x256 (ix3 r k j)
      * broadcastTo S64x128x256 (shapeCast S1x128x256 b shapeCasts_S128x256_S1x128x256) broadcasts_S1x128x256_S64x128x256 (ix3 r k j)
      = a (ix2 r k) * b (ix2 k j)
  exact congrArg₂ (· * ·)
    ((broadcastTo_ab1_abc_apply _ broadcasts_S64x128x1_S64x128x256 r k j).trans
      (shapeCast_ab_ab1_apply a shapeCasts_S64x128_S64x128x1 r k 0))
    ((broadcastTo_1bc_abc_apply _ broadcasts_S1x128x256_S64x128x256 r k j).trans
      (shapeCast_ab_1ab_apply b shapeCasts_S128x256_S1x128x256 0 k j))

/-- The 128 products a run contributes to the result at `(r, j)`. -/
def chunkTerms (a : S64x128.Idx → EReal) (b : S128x256.Idx → EReal) (r : Fin 64) (j : Fin 256) : Fin 128 → EReal :=
  fun k => a (ix2 r k) * b (ix2 k j)

/-- Inserting coordinate `k` on the middle axis over the block index `(r, j)` gives `(r, k, j)`. -/
theorem lift_mid (r : Fin 64) (j : Fin 256) (k : Fin 128) :
    reduces_S64x128x256_S64x256.lift (ix2 r j) k = ix3 r k j := by
  funext a
  match a with
  | ⟨0, _⟩ => rfl
  | ⟨1, _⟩ => rfl
  | ⟨2, _⟩ => rfl

/-- So a reduction over the middle axis at `(r, j)` folds over the run's 128 products. -/
theorem chunkProd_lift (a : S64x128.Idx → EReal) (b : S128x256.Idx → EReal) (r : Fin 64) (j : Fin 256) :
    chunkProd a b ∘ reduces_S64x128x256_S64x256.lift (ix2 r j) = chunkTerms a b r j :=
  funext fun (k : Fin 128) => (congrArg (chunkProd a b) (lift_mid r j k)).trans (chunkProd_apply a b r k j)

/-- A run's maximum at `(r, j)`: the fold of `max` from −∞ over its 128 products. -/
theorem chunkMax_apply (v : S64x128x256.Idx → EReal) (a : S64x128.Idx → EReal) (b : S128x256.Idx → EReal)
    (hv : v = chunkProd a b) (r : Fin 64) (j : Fin 256) :
    multiReduction (F := Ideal) (φ := .f32) .maximumf [1] S64x256 v 0xFF800000#32 reduces_S64x128x256_S64x256 (.inl rfl) rfl (ix2 r j)
      = Finset.univ.fold max negInf (chunkTerms a b r j) := by
  subst hv
  exact (Ideal.multiReduction_maximumf_single (φ := .f32) (chunkProd a b) 0xFF800000#32 reduces_S64x128x256_S64x256
      (.inl rfl) rfl (ix2 r j)).trans
    (congrArg (Finset.univ.fold max negInf) (chunkProd_lift a b r j))

/-- A run's minimum at `(r, j)`: the fold of `min` from +∞ over the same products. -/
theorem chunkMin_apply (v : S64x128x256.Idx → EReal) (a : S64x128.Idx → EReal) (b : S128x256.Idx → EReal)
    (hv : v = chunkProd a b) (r : Fin 64) (j : Fin 256) :
    multiReduction (F := Ideal) (φ := .f32) .minimumf [1] S64x256 v 0x7F800000#32 reduces_S64x128x256_S64x256 (.inl rfl) rfl (ix2 r j)
      = Finset.univ.fold min posInf (chunkTerms a b r j) := by
  subst hv
  exact (multiReduction_minimumf_single (φ := .f32) (chunkProd a b) 0x7F800000#32 reduces_S64x128x256_S64x256
      (.inl rfl) rfl (ix2 r j)).trans
    (congrArg (Finset.univ.fold min posInf) (chunkProd_lift a b r j))

/-! ## The body's intermediate values are these -/

/-- The first three runs' product arrays are `chunkProd` of their loads (a cast of the `weight` piece to its own shape
    changes nothing). -/
theorem pay2_eq (a : S64x128.Idx → EReal) (b : S128x256.Idx → EReal) : k0_pay2 (F := Ideal) a b = chunkProd a b := by
  show chunkProd a (shapeCast S128x256 b shapeCasts_S128x256_S128x256) = chunkProd a b
  rw [shapeCast_self]
theorem pay3_eq (a : S64x128.Idx → EReal) (b : S128x256.Idx → EReal) : k0_pay3 (F := Ideal) a b = chunkProd a b := by
  show chunkProd a (shapeCast S128x256 b shapeCasts_S128x256_S128x256) = chunkProd a b
  rw [shapeCast_self]
theorem pay4_eq (a : S64x128.Idx → EReal) (b : S128x256.Idx → EReal) : k0_pay4 (F := Ideal) a b = chunkProd a b := by
  show chunkProd a (shapeCast S128x256 b shapeCasts_S128x256_S128x256) = chunkProd a b
  rw [shapeCast_self]
/-- The fourth run's `weight` piece, cast to its own shape, is itself. -/
theorem pay7_eq (b : S128x256.Idx → EReal) : k0_pay7 (F := Ideal) b = b := by
  show shapeCast S128x256 b shapeCasts_S128x256_S128x256 = b
  rw [shapeCast_self]

/-- The running maximum after three runs is the vector `max` of the three runs' maxima. -/
theorem pay5_fun (P0 : S64x128.Idx → EReal) (P1 : S128x256.Idx → EReal) (P2 : S64x128.Idx → EReal) (P3 : S128x256.Idx → EReal)
    (P4 : S64x128.Idx → EReal) (P5 : S128x256.Idx → EReal) :
    k0_pay5 (F := Ideal) P0 P1 P2 P3 P4 P5
      = maximumf (F := Ideal) (φ := .f32)
          (maximumf (F := Ideal) (φ := .f32)
            (multiReduction (F := Ideal) (φ := .f32) .maximumf [1] S64x256 (k0_pay2 P0 P1) 0xFF800000#32 reduces_S64x128x256_S64x256 (.inl rfl) rfl)
            (multiReduction (F := Ideal) (φ := .f32) .maximumf [1] S64x256 (k0_pay3 P2 P3) 0xFF800000#32 reduces_S64x128x256_S64x256 (.inl rfl) rfl))
          (multiReduction (F := Ideal) (φ := .f32) .maximumf [1] S64x256 (k0_pay4 P4 P5) 0xFF800000#32 reduces_S64x128x256_S64x256 (.inl rfl) rfl) :=
  rfl

/-- The running maximum after three runs, at `(r, j)`. -/
theorem pay5_apply (P0 : S64x128.Idx → EReal) (P1 : S128x256.Idx → EReal) (P2 : S64x128.Idx → EReal) (P3 : S128x256.Idx → EReal)
    (P4 : S64x128.Idx → EReal) (P5 : S128x256.Idx → EReal) (r : Fin 64) (j : Fin 256) :
    k0_pay5 (F := Ideal) P0 P1 P2 P3 P4 P5 (ix2 r j)
      = max (max (Finset.univ.fold max negInf (chunkTerms P0 P1 r j)) (Finset.univ.fold max negInf (chunkTerms P2 P3 r j)))
          (Finset.univ.fold max negInf (chunkTerms P4 P5 r j)) := by
  rw [pay5_fun, maximumf_apply, maximumf_apply, chunkMax_apply _ P0 P1 (pay2_eq P0 P1), chunkMax_apply _ P2 P3 (pay3_eq P2 P3),
    chunkMax_apply _ P4 P5 (pay4_eq P4 P5)]

/-- The running minimum after three runs is the vector `min` of the three runs' minima. -/
theorem pay6_fun (P0 : S64x128.Idx → EReal) (P1 : S128x256.Idx → EReal) (P2 : S64x128.Idx → EReal) (P3 : S128x256.Idx → EReal)
    (P4 : S64x128.Idx → EReal) (P5 : S128x256.Idx → EReal) :
    k0_pay6 (F := Ideal) P0 P1 P2 P3 P4 P5
      = minimumf (F := Ideal) (φ := .f32)
          (minimumf (F := Ideal) (φ := .f32)
            (multiReduction (F := Ideal) (φ := .f32) .minimumf [1] S64x256 (k0_pay2 P0 P1) 0x7F800000#32 reduces_S64x128x256_S64x256 (.inl rfl) rfl)
            (multiReduction (F := Ideal) (φ := .f32) .minimumf [1] S64x256 (k0_pay3 P2 P3) 0x7F800000#32 reduces_S64x128x256_S64x256 (.inl rfl) rfl))
          (multiReduction (F := Ideal) (φ := .f32) .minimumf [1] S64x256 (k0_pay4 P4 P5) 0x7F800000#32 reduces_S64x128x256_S64x256 (.inl rfl) rfl) :=
  rfl

/-- The running minimum after three runs, at `(r, j)`. -/
theorem pay6_apply (P0 : S64x128.Idx → EReal) (P1 : S128x256.Idx → EReal) (P2 : S64x128.Idx → EReal) (P3 : S128x256.Idx → EReal)
    (P4 : S64x128.Idx → EReal) (P5 : S128x256.Idx → EReal) (r : Fin 64) (j : Fin 256) :
    k0_pay6 (F := Ideal) P0 P1 P2 P3 P4 P5 (ix2 r j)
      = min (min (Finset.univ.fold min posInf (chunkTerms P0 P1 r j)) (Finset.univ.fold min posInf (chunkTerms P2 P3 r j)))
          (Finset.univ.fold min posInf (chunkTerms P4 P5 r j)) := by
  rw [pay6_fun, minimumf_apply, minimumf_apply, chunkMin_apply _ P0 P1 (pay2_eq P0 P1), chunkMin_apply _ P2 P3 (pay3_eq P2 P3),
    chunkMin_apply _ P4 P5 (pay4_eq P4 P5)]

/-- The `bias` row repeated down the 64 rows, at `(r, j)`, is the row's entry at `j`. -/
theorem biasRow_apply (P8 : S1x256.Idx → EReal) (r : Fin 64) (j : Fin 256) :
    broadcastTo S64x256 (shapeCast S1x256 P8 shapeCasts_S1x256_S1x256) broadcasts_S1x256_S64x256 (ix2 r j)
      = P8 (ix2 (0 : Fin 1) j) :=
  (broadcastTo_1b_ab_apply _ broadcasts_S1x256_S64x256 r j).trans
    (congrFun (shapeCast_self P8 shapeCasts_S1x256_S1x256) _)

/-- The stored value as its tree of vector operations, the two running values `u` (maximum) and `w` (minimum) after
    three runs kept as variables: the fourth run's maximum and minimum joined to them, the two results added, the `bias`
    row repeated down the rows added to that. -/
theorem pay1_fun (u w : S64x256.Idx → EReal) (P6 : S64x128.Idx → EReal) (b7 : S128x256.Idx → EReal) (P8 : S1x256.Idx → EReal) :
    k0_pay1 (F := Ideal) u w P6 b7 P8
      = addf (F := Ideal) (φ := .f32)
          (addf (F := Ideal) (φ := .f32)
            (maximumf (F := Ideal) (φ := .f32) u
              (multiReduction (F := Ideal) (φ := .f32) .maximumf [1] S64x256 (chunkProd P6 b7) 0xFF800000#32 reduces_S64x128x256_S64x256 (.inl rfl) rfl))
            (minimumf (F := Ideal) (φ := .f32) w
              (multiReduction (F := Ideal) (φ := .f32) .minimumf [1] S64x256 (chunkProd P6 b7) 0x7F800000#32 reduces_S64x128x256_S64x256 (.inl rfl) rfl)))
          (broadcastTo S64x256 (shapeCast S1x256 P8 shapeCasts_S1x256_S1x256) broadcasts_S1x256_S64x256) :=
  rfl

/-- THE STORED VALUE at `(r, j)`, over the body's nine loads as variables. -/
theorem stored_apply (P0 : S64x128.Idx → EReal) (P1 : S128x256.Idx → EReal) (P2 : S64x128.Idx → EReal) (P3 : S128x256.Idx → EReal)
    (P4 : S64x128.Idx → EReal) (P5 : S128x256.Idx → EReal) (P6 : S64x128.Idx → EReal) (P7 : S128x256.Idx → EReal)
    (P8 : S1x256.Idx → EReal) (r : Fin 64) (j : Fin 256) :
    k0_pay1 (F := Ideal) (k0_pay5 P0 P1 P2 P3 P4 P5) (k0_pay6 P0 P1 P2 P3 P4 P5) P6 (k0_pay7 P7) P8 (ix2 r j)
      = (max (max (max (Finset.univ.fold max negInf (chunkTerms P0 P1 r j)) (Finset.univ.fold max negInf (chunkTerms P2 P3 r j)))
                (Finset.univ.fold max negInf (chunkTerms P4 P5 r j)))
            (Finset.univ.fold max negInf (chunkTerms P6 P7 r j))
          + min (min (min (Finset.univ.fold min posInf (chunkTerms P0 P1 r j)) (Finset.univ.fold min posInf (chunkTerms P2 P3 r j)))
                  (Finset.univ.fold min posInf (chunkTerms P4 P5 r j)))
              (Finset.univ.fold min posInf (chunkTerms P6 P7 r j)))
        + P8 (ix2 (0 : Fin 1) j) := by
  rw [pay1_fun, pay7_eq, addf_apply, addf_apply, maximumf_apply, minimumf_apply, pay5_apply, pay6_apply,
    chunkMax_apply _ P6 P7 rfl, chunkMin_apply _ P6 P7 rfl, biasRow_apply]

end Cert.KernelIdeal.KernelValue

end
-- ==== Proof.KernelArray.lean ====
/-
  From the kernel's blocks to its whole result array.

  The grid has 32 points. At point `t` the kernel holds rows `64 t … 64 t + 63` of `x` (all 512 columns), the whole
  transpose of `weight` and the whole `bias` row — the last two written by the host before the launch, a transpose and a
  cast of the arguments —, and writes back rows `64 t … 64 t + 63` of the result (all 256 columns).

  `Cert.KernelIdeal.KernelValue.stored_apply` says what is stored at `(r, j)` of the block in terms of the loaded pieces. A
  piece is a rectangle of a block: the `x` piece of the run at offset `o` at `(r, k)` is the block's entry `(r, o + k)`,
  the `weight` piece at `(k, j)` the transposed array's entry `(o + k, j)`. The block's entry `(r, q)` is the array's entry
  `(64 t + r, q)`. So with `n = 64 t + r` every product `X[r, o + k] · W[o + k, j]` is `x[n, o + k] · weight[j, o + k]`: a
  row product of the specification taken along the run at `o`, and the stored value is the chunked arrangement of
  `specAt x weight bias n j` (`Cert.MaxMin.specAt_runs`). The 32 row blocks tile the 2048 rows — row `n` lies in block
  `n div 64` —, so after the run the whole result array is `spec x weight bias`, and the arguments are as launched.
-/
import proofs.«127666_j64785286692872_2_alg».proof.Proof.KernelPayload
import Idealize.ShloMosaic.Lib.StableHlo.Run
import Idealize.ShloMosaic.Lib.Pipeline.Value
import Idealize.ShloMosaic.Lib.ValueLayout

noncomputable section

namespace Cert.KernelIdeal.KernelValue

open Cert.KernelIdeal Cert.KernelIdeal.Gen Idealize.ShloMosaic Idealize.ShloMosaic.ValueIdx
open Idealize.ShloMosaic.TcCoe Idealize.SL.Sem Idealize.ShloMosaic.StableHlo
open Cert.MaxMin Cert.MaxMinFold
open Idealize.ShloMosaic.Pipeline (Dat)

/-! ## The pieces a run loads, as entries of the blocks -/

/-- The `x` piece of the run at offset `o`, at `(r, k)`, is the 64 × 512 block's entry `(r, o + k)`. -/
theorem xPiece_apply (x0 : S64x512.Idx → EReal) (o : Nat) (ho : o + 128 ≤ 512)
    (inb : ∀ a, (![0, o] : Fin 2 → Nat) a + S64x128.size a ≤ S64x512.size a) (r : Fin 64) (k : Fin 128) :
    View.ld (Val := Elt Ideal) (e' := .f32) x0 (Rect.unit (s := S64x512) ![0, o] S64x128.size inb) (ix2 r k) = x0 (ix2 r (run o ho k)) := by
  show x0 ((Rect.unit (s := S64x512) ![0, o] S64x128.size inb).idx (ix2 r k)) = x0 (ix2 r (run o ho k))
  refine congrArg x0 (funext fun a => Fin.ext ?_)
  match a with
  | ⟨0, _⟩ => show 0 + 1 * r.val = r.val; omega
  | ⟨1, _⟩ => show o + 1 * k.val = o + k.val; omega

/-- The transposed-`weight` piece of the run at offset `o`, at `(k, j)`, is the 512 × 256 array's entry `(o + k, j)`. -/
theorem wPiece_apply (x1 : S512x256.Idx → EReal) (o : Nat) (ho : o + 128 ≤ 512)
    (inb : ∀ a, (![o, 0] : Fin 2 → Nat) a + S128x256.size a ≤ S512x256.size a) (k : Fin 128) (j : Fin 256) :
    View.ld (Val := Elt Ideal) (e' := .f32) x1 (Rect.unit (s := S512x256) ![o, 0] S128x256.size inb) (ix2 k j) = x1 (ix2 (run o ho k) j) := by
  show x1 ((Rect.unit (s := S512x256) ![o, 0] S128x256.size inb).idx (ix2 k j)) = x1 (ix2 (run o ho k) j)
  refine congrArg x1 (funext fun a => Fin.ext ?_)
  match a with
  | ⟨0, _⟩ => show o + 1 * k.val = o + k.val; omega
  | ⟨1, _⟩ => show 0 + 1 * j.val = j.val; omega

/-- The products of the run at offset `o` at `(r, j)`, over the blocks' entries. -/
def blockTerms (x0 : S64x512.Idx → EReal) (x1 : S512x256.Idx → EReal) (o : Nat) (ho : o + 128 ≤ 512) (r : Fin 64) (j : Fin 256) :
    Fin 128 → EReal :=
  fun k => x0 (ix2 r (run o ho k)) * x1 (ix2 (run o ho k) j)

theorem chunkTerms_pieces (x0 : S64x512.Idx → EReal) (x1 : S512x256.Idx → EReal) (o : Nat) (ho : o + 128 ≤ 512)
    (inb0 : ∀ a, (![0, o] : Fin 2 → Nat) a + S64x128.size a ≤ S64x512.size a)
    (inb1 : ∀ a, (![o, 0] : Fin 2 → Nat) a + S128x256.size a ≤ S512x256.size a) (r : Fin 64) (j : Fin 256) :
    chunkTerms (View.ld (Val := Elt Ideal) (e' := .f32) x0 (Rect.unit (s := S64x512) ![0, o] S64x128.size inb0))
        (View.ld (Val := Elt Ideal) (e' := .f32) x1 (Rect.unit (s := S512x256) ![o, 0] S128x256.size inb1)) r j
      = blockTerms x0 x1 o ho r j :=
  funext fun k => congrArg₂ (· * ·) (xPiece_apply x0 o ho inb0 r k) (wPiece_apply x1 o ho inb1 k j)

/-! ## The block the body leaves, over the three input blocks as variables -/

theorem hz : (![0, 0] : Fin 2 → Nat) = fun _ => 0 := funext fun a => by fin_cases a <;> rfl

/-- What the body leaves in the output block at `(r, j)`: over the input blocks' entries, the four runs' maxima joined
    by `max`, plus the four runs' minima joined by `min`, plus the `bias` row's entry at `j`. -/
theorem out_apply (x0 : S64x512.Idx → EReal) (x1 : S512x256.Idx → EReal) (x2 : S1x256.Idx → EReal) (r : Fin 64) (j : Fin 256) :
    out0_3 (F := Ideal) x0 x1 x2 (ix2 r j)
      = (max (max (max (Finset.univ.fold max negInf (blockTerms x0 x1 0 (by decide) r j))
                    (Finset.univ.fold max negInf (blockTerms x0 x1 128 (by decide) r j)))
                (Finset.univ.fold max negInf (blockTerms x0 x1 256 (by decide) r j)))
            (Finset.univ.fold max negInf (blockTerms x0 x1 384 (by decide) r j))
          + min (min (min (Finset.univ.fold min posInf (blockTerms x0 x1 0 (by decide) r j))
                      (Finset.univ.fold min posInf (blockTerms x0 x1 128 (by decide) r j)))
                  (Finset.univ.fold min posInf (blockTerms x0 x1 256 (by decide) r j)))
              (Finset.univ.fold min posInf (blockTerms x0 x1 384 (by decide) r j)))
        + x2 (ix2 (0 : Fin 1) j) := by
  unfold out0_3
  rw [View.canon_unit_zero hz, stored_apply,
    chunkTerms_pieces x0 x1 0 (by decide) inb_S64x512_S64x128_0_0 inb_S512x256_S128x256_0_0 r j,
    chunkTerms_pieces x0 x1 128 (by decide) inb_S64x512_S64x128_0_128 inb_S512x256_S128x256_128_0 r j,
    chunkTerms_pieces x0 x1 256 (by decide) inb_S64x512_S64x128_0_256 inb_S512x256_S128x256_256_0 r j,
    chunkTerms_pieces x0 x1 384 (by decide) inb_S64x512_S64x128_0_384 inb_S512x256_S128x256_384_0 r j,
    View.ld_unit_zero (S := S1x256) hz]

/-! ## The arrays the region finds, and the blocks at a grid point -/

variable (m : (ℓ : Loc nD τ sig) → Buf (Elt Ideal) ℓ) (ρ : Dev nD → PrngReg)

/-- The array window 1 stages is the transpose of `weight`, written by the host before the launch. -/
theorem V_wT (c : Dev nD) : (V m c main_v0 : S512x256.Idx → EReal)
    = transpose S512x256 [1, 0] (m ((c : Thread nD τ).loc main_arg1)) transposes_S256x512_S512x256_1_0 := by
  dsimp only [V, hostOps0]
  after_results

/-- The array window 2 stages is `bias` cast to one row, written by the host before the launch. -/
theorem V_biasRow (c : Dev nD) : (V m c main_v1 : S1x256.Idx → EReal)
    = shapeCast S1x256 (m ((c : Thread nD τ).loc main_arg2)) shapeCasts_S256_S1x256 := by
  dsimp only [V, hostOps0]
  after_results
  rfl

/-- The printed index maps over the 32 grid points: the `x` window and the result window are at row block `t`, the other
    two windows never move. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The `x` block at point `t`: its entry `(r, q)` is `x[64 t + r, q]`. -/
theorem xBlock_apply (c : Dev nD) (t : Fin cfg0.N) (r : Fin 64) (q : Fin 512) (n : Fin 2048) (hn : n.val = t.val * 64 + r.val) :
    (iblk m c 0 t : S64x512.Idx → EReal) (ix2 r q) = m ((c : Thread nD τ).loc main_arg0) (ix2 n q) := by
  obtain ⟨e0, e1, -⟩ := idx_facts t
  show V m c main_arg0 (((cfg0.win 0).blk t).view.emb (ix2 r q)) = _
  rw [V_main_arg0]
  refine congrArg _ (funext fun a => Fin.ext ?_)
  match a with
  | ⟨0, _⟩ => show win0_0.index t (0 : Fin 2) * 64 + 1 * r.val = n.val; rw [e0, hn]; omega
  | ⟨1, _⟩ => show win0_0.index t (1 : Fin 2) * 512 + 1 * q.val = q.val; rw [e1]; omega

/-- The transposed-`weight` block at any point is the whole array: its entry `(q, j)` is `weight[j, q]`. -/
theorem wBlock_apply (c : Dev nD) (t : Fin cfg0.N) (q : Fin 512) (j : Fin 256) :
    (iblk m c 1 t : S512x256.Idx → EReal) (ix2 q j) = m ((c : Thread nD τ).loc main_arg1) (ix2 j q) := by
  obtain ⟨-, -, e2, e3, -⟩ := idx_facts t
  show V m c main_v0 (((cfg0.win 1).blk t).view.emb (ix2 q j)) = _
  rw [V_wT]
  refine Eq.trans (congrArg _ (funext fun a => Fin.ext ?_)) (transpose_ix2_apply _ transposes_S256x512_S512x256_1_0 q j)
  match a with
  | ⟨0, _⟩ => show win0_1.index t (0 : Fin 2) * 512 + 1 * q.val = q.val; rw [e2]; omega
  | ⟨1, _⟩ => show win0_1.index t (1 : Fin 2) * 256 + 1 * j.val = j.val; rw [e3]; omega

/-- The `bias` row block at any point is the whole row: its entry `(0, j)` is `bias[j]`. -/
theorem bBlock_apply (c : Dev nD) (t : Fin cfg0.N) (j : Fin 256) :
    (iblk m c 2 t : S1x256.Idx → EReal) (ix2 (0 : Fin 1) j) = m ((c : Thread nD τ).loc main_arg2) (ix1 j) := by
  obtain ⟨-, -, -, -, e4, e5, -⟩ := idx_facts t
  show V m c main_v1 (((cfg0.win 2).blk t).view.emb (ix2 (0 : Fin 1) j)) = _
  rw [V_biasRow]
  refine Eq.trans (congrArg _ (funext fun a => Fin.ext ?_)) (shapeCast_a_1a_apply _ shapeCasts_S256_S1x256 (0 : Fin 1) j)
  match a with
  | ⟨0, _⟩ => show win0_2.index t (0 : Fin 2) * 1 + 1 * 0 = 0; rw [e4]
  | ⟨1, _⟩ => show win0_2.index t (1 : Fin 2) * 256 + 1 * j.val = j.val; rw [e5]; omega

/-- A run's products at a grid point are the specification's row products along that run. -/
theorem blockTerms_eq (c : Dev nD) (t : Fin cfg0.N) (o : Nat) (ho : o + 128 ≤ 512) (r : Fin 64) (j : Fin 256) (n : Fin 2048)
    (hn : n.val = t.val * 64 + r.val) :
    blockTerms (iblk m c 0 t) (iblk m c 1 t) o ho r j
      = rowProd (m ((c : Thread nD τ).loc main_arg0)) (m ((c : Thread nD τ).loc main_arg1)) n j ∘ run o ho :=
  funext fun k => congrArg₂ (· * ·) (xBlock_apply m c t r (run o ho k) n hn) (wBlock_apply m c t (run o ho k) j)

/-! ## What a point writes back, the cover, the whole array -/

/-- WHAT POINT `t` WRITES BACK is block `t` of the specification of the three arguments. -/
theorem flushed_eq (c : Dev nD) (t : Fin cfg0.N) :
    (dats m 0 c).flushed 3 t = ((cfg0.win 3).blk t).view.read (Elt Ideal)
      (spec (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  funext y
  obtain ⟨r, j, rfl⟩ : ∃ (r : Fin 64) (j : Fin 256), y = ix2 r j := ⟨y 0, y 1, eq_ix2 y⟩
  have hN : cfg0.N = 32 := N_0
  have ht : t.val < 32 := hN ▸ t.isLt
  obtain ⟨n, hn⟩ : ∃ n : Fin 2048, n.val = t.val * 64 + r.val := ⟨⟨t.val * 64 + r.val, by have := r.isLt; omega⟩, rfl⟩
  obtain ⟨-, -, -, -, -, -, e6, e7⟩ := idx_facts t
  have hemb : ((cfg0.win 3).blk t).view.emb (ix2 r j) = (ix2 n j : S2048x256.Idx) := by
    funext a
    apply Fin.ext
    match a with
    | ⟨0, _⟩ => show win0_3.index t (0 : Fin 2) * 64 + 1 * r.val = n.val; rw [e6, hn]; omega
    | ⟨1, _⟩ => show win0_3.index t (1 : Fin 2) * 256 + 1 * j.val = j.val; rw [e7]; omega
  show out0_3 (F := Ideal) (iblk m c 0 t) (iblk m c 1 t) (iblk m c 2 t) (ix2 r j)
    = spec (m ((c : Thread nD τ).loc main_arg0)) (m ((c : Thread nD τ).loc main_arg1)) (m ((c : Thread nD τ).loc main_arg2))
        (((cfg0.win 3).blk t).view.emb (ix2 r j))
  rw [hemb, spec_ix2, ← specAt_runs]
  refine (out_apply (iblk m c 0 t) (iblk m c 1 t) (iblk m c 2 t) r j).trans ?_
  rw [blockTerms_eq m c t 0 (by decide) r j n hn, blockTerms_eq m c t 128 (by decide) r j n hn,
    blockTerms_eq m c t 256 (by decide) r j n hn, blockTerms_eq m c t 384 (by decide) r j n hn, bBlock_apply m c t j]

/-- An index of the result array is in point `t`'s block iff each coordinate is in the block's range on its axis. -/
theorem mem_blk (t : Fin cfg0.N) (i : S2048x256.Idx) :
    i ∈ ((cfg0.win 3).blk t).view.set
      ↔ ∀ a : Fin 2, win0_3.index t a * S64x256.size a ≤ (i a).val ∧ (i a).val < win0_3.index t a * S64x256.size a + S64x256.size a := by
  show i ∈ ((View.whole main_v2).slice (win0_3.rect t)).set ↔ _
  rw [View.set_slice_whole, Rect.mem_set_unit]
  exact Iff.rfl

/-- Every index of the result array is in some point's block: row `n` in block `n div 64`. -/
theorem cover (i : S2048x256.Idx) : ∃ t : Fin cfg0.N, (cfg0.win 3).flush t = true ∧ i ∈ ((cfg0.win 3).blk t).view.set := by
  have hN : cfg0.N = 32 := N_0
  have h0 : (i 0).val < 2048 := (i 0).isLt
  have h1 : (i 1).val < 256 := (i 1).isLt
  have htl : (i 0).val / 64 < cfg0.N := by rw [hN]; omega
  obtain ⟨-, -, -, -, -, -, e6, e7⟩ := idx_facts ⟨(i 0).val / 64, htl⟩
  refine ⟨⟨(i 0).val / 64, htl⟩, flush0_3 _, ?_⟩
  rw [mem_blk]
  intro a
  match a with
  | ⟨0, _⟩ =>
    show win0_3.index ⟨(i 0).val / 64, htl⟩ (0 : Fin 2) * 64 ≤ (i 0).val
      ∧ (i 0).val < win0_3.index ⟨(i 0).val / 64, htl⟩ (0 : Fin 2) * 64 + 64
    rw [e6]
    show (i 0).val / 64 * 64 ≤ (i 0).val ∧ (i 0).val < (i 0).val / 64 * 64 + 64
    omega
  | ⟨1, _⟩ =>
    show win0_3.index ⟨(i 0).val / 64, htl⟩ (1 : Fin 2) * 256 ≤ (i 1).val
      ∧ (i 1).val < win0_3.index ⟨(i 0).val / 64, htl⟩ (1 : Fin 2) * 256 + 256
    rw [e7]
    omega

/-- THE RESULT ARRAY after the run is the specification of the three arguments. -/
theorem final (c : Dev nD) : (dats m 0 c).arrAt 3 cfg0.N
    = spec (m ((c : Thread nD τ).loc main_arg0)) (m ((c : Thread nD τ).loc main_arg1)) (m ((c : Thread nD τ).loc main_arg2)) :=
  (dats m 0 c).arrAt_eq_of_cover 3 _ (fun t _ => flushed_eq m c t) cover

/-! ## The run, read -/

/-- Every weakly fair execution of the idealized kernel program terminates with the result array at the specification
    of the three arguments and the arguments as launched. The result array is the pipeline's final array for the output
    window; `x` is staged and never written back; `weight` and `bias` are staged by no window and the run leaves such
    buffers as the region found them; and the host operations before the launch write none of the three. -/
theorem run : θ_run defs (onTc (τ := τ) (main (F := Ideal))) ⟨m, fun _ => 0, ρ⟩ fun r => ∀ c : Dev nD,
      r.2.mem ((c : Thread nD τ).loc main_v2)
        = spec (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.KernelValue

end
-- ==== Proof.lean ====
/-
  The certificate's five claims.

  THE MATHEMATICS. For every row `n` of `x` (2048 × 512) and every row `j` of `weight` (256 × 512) both programs take the
  512 products `x[n,k] · weight[j,k]`, add the largest to the smallest, and add `bias[j]`: the function
  `Cert.MaxMin.spec` (Proof/MaxMinSpec.lean), stated on the extended reals with the maximum started from −∞ and the
  minimum from +∞. The reference forms all products over one 2048 × 512 × 256 index set and reduces along the middle
  axis (Proof/RefIsSpec.lean: its result IS `spec` of the arguments). The kernel works on blocks of 64 rows and cuts the
  contracted axis into four runs of 128: per run a maximum and a minimum, the four joined by `max` and by `min`
  (Proof/KernelPayload.lean: what is stored at one element of a block; Proof/KernelArray.lean: the 32 row blocks tile the
  result, so the whole result array IS `spec` of the arguments). The two arrangements agree because a maximum, or a
  minimum, over a finite family does not depend on how the family is grouped (Proof/LibMaxMinFold.lean); nothing else is
  used — no distributivity, no cancellation —, so the inputs' finiteness is never needed and the precondition is never
  opened.

  THE CLAIMS. The two kernel programs' frames are their generated frame proofs. The reference's frame is its generated run
  with the result dropped. The idealization rewrote no operation, so the `preserves` conjunct is `True`. For the algebraic
  claim both runs are stated with the SAME result term, `spec` of the kernel program's launch arguments: the kernel's run
  ends there, and the reference's ends at `spec` of its own arguments, which agree with the kernel's by hypothesis.
-/
import proofs.«127666_j64785286692872_2_alg».proof.Defs
import proofs.«127666_j64785286692872_2_alg».proof.Proof.Gen.Kernel
import proofs.«127666_j64785286692872_2_alg».proof.Proof.Gen.Kernel.Frame
import proofs.«127666_j64785286692872_2_alg».proof.Proof.Gen.KernelIdeal
import proofs.«127666_j64785286692872_2_alg».proof.Proof.Gen.KernelIdeal.Frame
import proofs.«127666_j64785286692872_2_alg».proof.Proof.Gen.ReferenceIdeal
import proofs.«127666_j64785286692872_2_alg».proof.Proof.Gen.ReferenceIdeal.Run
import proofs.«127666_j64785286692872_2_alg».proof.Proof.Gen.ReferenceIdeal.Read
import proofs.«127666_j64785286692872_2_alg».proof.Proof.Gen.Pre_finite_inputs
import proofs.«127666_j64785286692872_2_alg».proof.Proof.RefIsSpec
import proofs.«127666_j64785286692872_2_alg».proof.Proof.KernelArray

noncomputable section

namespace Cert.Proof

open Idealize.ShloMosaic Idealize.ShloMosaic.TcCoe Idealize.SL.Sem

/-- The word-level kernel program terminates, faults nowhere and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the three arguments, both idealized programs end with the same result array: `spec` of the
    arguments (the kernel's by `KernelValue.run`, the reference's by its run and `RefValue.ref_eq_spec`). -/
theorem algebraic : Cert.algebraic_KernelIdeal_ReferenceIdeal := by
  intro m ρ m' ρ' _ hagree
  refine ⟨fun c => Cert.MaxMin.spec
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.ref_eq_spec, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
